-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S512x512 : Shape := ⟨2, ![512, 512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S8x2048x512 .f32) (main_arg1 : FVec F S8x2048x512 .f32) (main_arg2 : FVec F S512x512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8x2048x512 .f32 := Host.absf main_arg1
  let main_cst_0 : FVec F S_ .f32 := constant S_ .f32 0x7F800000#32
  let main_v5 : FVec F S8x2048x512 .f32 := broadcastInDim S8x2048x512 ![] bcast_S_S8x2048x512 main_cst_0
  let main_v6 : IVec S8x2048x512 1 := cmpf .olt main_v4 main_v5
  let main_c_1 : IVec S_ 1 := constantI S_ 1 1#1
  let main_v7 : IVec S_ 1 := (fun x v => Host.reduce IntOp.andi x v reducesTo_S8x2048x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Kernel.lean ====
abbrev S8x2048x512 : Shape := ⟨3, ![8, 2048, 512]⟩
abbrev S512x512 : Shape := ⟨2, ![512, 512]⟩
abbrev S1x2048x512 : Shape := ⟨3, ![1, 2048, 512]⟩
abbrev S1x512x512 : Shape := ⟨3, ![1, 512, 512]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S512x512, .f32⟩
  | .hbm, ⟨3, _⟩ => ⟨S8x2048x512, .f32⟩
  | .local _ .vmem, ⟨0, _⟩ => ⟨S1x2048x512, .f32⟩
  | .local _ .vmem, ⟨1, _⟩ => ⟨S1x2048x512, .f32⟩
  | .local _ .vmem, ⟨2, _⟩ => ⟨S1x512x512, .f32⟩
  | .local _ .vmem, ⟨3, _⟩ => ⟨S1x512x512, .f32⟩
  | .local _ .vmem, ⟨4, _⟩ => ⟨S512x512, .f32⟩
  | .local _ .vmem, ⟨5, _⟩ => ⟨S1x512x512, .f32⟩
  | .local _ .vmem, ⟨6, _⟩ => ⟨S1x512x512, .f32⟩
  | .local _ .vmem, ⟨7, _⟩ => ⟨S512x2048, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S512x512_S512x512_0_0 : ∀ a, (![0, 0] : Fin 2 → Nat) a + S512x512.size a ≤ S512x512.size a
  h_S512x512 : 0 < S512x512.numel
  transposes_S2048x512_p1_0_S512x2048 : S2048x512.Transposes [1, 0] S512x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  reduces_S512x2048_S512 : S512x2048.Reduces [1] S512
  shapeCasts_S512_S512x1 : S512.ShapeCasts S512x1
  broadcasts_S512x1_S512x2048 : S512x1.Broadcasts S512x2048
  bitsLt_bf16_f32 : FTy.bits .bf16 < FTy.bits .f32
  broadcasts_S512x1_S512x512 : S512x1.Broadcasts S512x512
  shapeCasts_S512x512_S1x512x512 : S512x512.ShapeCasts S1x512x512
  dot_S2048x512_S512x512_S2048x512_1_0_0_1_n_n_wf : DotDims.WF S2048x512 S512x512 S2048x512 [1] [0] [0] [1] [] []
  dot_S512x512_S512x2048_S512x2048_1_0_0_1_n_n_wf : DotDims.WF S512x512 S512x2048 S512x2048 [1] [0] [0] [1] [] []
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S8x2048x512.size a
  hwx0_0 : ∀ i : grid0.Coords, EltTy.bits .f32 = 32 ∨ (Rect.block (s := S8x2048x512) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S8x2048x512.size a
  hwx0_1 : ∀ i : grid0.Coords, EltTy.bits .f32 = 32 ∨ (Rect.block (s := S8x2048x512) S1x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S8x2048x512.size a
  hwx0_3 : ∀ i : grid0.Coords, EltTy.bits .f32 = 32 ∨ (Rect.block (s := S8x2048x512) S1x512x512.size (cc0_transform_3 i) (hinb0_3 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x512 : Shape := ⟨3, ![8, 2048, 512]⟩
abbrev S512x512 : Shape := ⟨2, ![512, 512]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S512x512, .f32⟩
  | .hbm, ⟨3, _⟩ => ⟨S8x2048x512, .f32⟩
  | .hbm, ⟨4, _⟩ => ⟨S8x2048x2048, .f32⟩
  | .hbm, ⟨5, _⟩ => ⟨S_, .f32⟩
  | .hbm, ⟨6, _⟩ => ⟨S8x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S8x2048x1, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S_, .f32⟩
  | .hbm, ⟨15, _⟩ => ⟨S8x2048, .f32⟩
  | .hbm, ⟨16, _⟩ => ⟨S8x2048x1, .f32⟩
  | .hbm, ⟨17, _⟩ => ⟨S8x2048x2048, .f32⟩
  | .hbm, ⟨18, _⟩ => ⟨S8x2048x2048, .f32⟩
  | .hbm, ⟨19, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x512_S512x512_S8x2048x512_2_0_01_1_n_n_wf : DotDims.WF S8x2048x512 S512x512 S8x2048x512 [2] [0] [0, 1] [1] [] []
  dot_S8x2048x512_S8x2048x512_S8x2048x2048_2_2_1_1_0_0_wf : DotDims.WF S8x2048x512 S8x2048x512 S8x2048x2048 [2] [2] [1] [1] [0] [0]
  dot_S8x2048x2048_S8x2048x512_S8x2048x512_2_1_1_2_0_0_wf : DotDims.WF S8x2048x2048 S8x2048x512 S8x2048x512 [2] [1] [1] [2] [0] [0]

variable [Facts₀]

def dot_S8x2048x512_S512x512_S8x2048x512_2_0_01_1_n_n : DotDims S8x2048x512 S512x512 S8x2048x512 where
  lhsContracting := [2]
  rhsContracting := [0]
  lhsNonContracting := [0, 1]
  rhsNonContracting := [1]
  lhsBatch := []
  rhsBatch := []
  wf := dot_S8x2048x512_S512x512_S8x2048x512_2_0_01_1_n_n_wf
def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf
def dot_S8x2048x2048_S8x2048x512_S8x2048x512_2_1_1_2_0_0 : DotDims S8x2048x2048 S8x2048x512 S8x2048x512 where
  lhsContracting := [2]
  rhsContracting := [1]
  lhsNonContracting := [1]
  rhsNonContracting := [2]
  lhsBatch := [0]
  rhsBatch := [0]
  wf := dot_S8x2048x2048_S8x2048x512_S8x2048x512_2_1_1_2_0_0_wf

class Facts : Prop extends Facts₀ where

variable [Facts]
-- ==== Proof.BodyCases.lean ====
/-
  What each case of the kernel body leaves behind, as values of its loads.

  At the first decoder tile of a batch the body stores the transposed keys into the carried scratch and then computes
  the output block from the scratch it has just written; at the other tiles it leaves the scratch alone and computes
  the output block from what the scratch already holds.  In both cases the output block is the same function
  (the body's second stored value) of the decoder tile, the scratch contents it reads, and the encoder block.
-/
import proofs.«141502_j4174708212176_2_alg».proof.Proof.Gen.KernelIdeal.Frame
import Idealize.ShloMosaic.Lib.Pipeline.Value
import Idealize.ShloMosaic.Lib.Tactic

noncomputable section

namespace Cert.Attention.Kernel

open Idealize.ShloMosaic Idealize.ShloMosaic.TcCoe Idealize.SL.Sem Cert.KernelIdeal Cert.KernelIdeal.Gen
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a later tile of a batch the output block is the body's second stored value of the decoder tile, the scratch
    as the tile before left it, and the encoder block. -/
theorem out_later (c : Dev nD) (i : grid0.Coords) (arg2 : Memref sig .tc .vmem S1x2048x512 .f32) (harg2 : arg2.IsWhole) (arg3 : Memref sig .tc .vmem S1x512x512 .f32) (harg3 : arg3.IsWhole) (arg4 : Memref sig .tc .vmem S512x512 .f32) (harg4 : arg4.IsWhole) (arg5 : Memref sig .tc .vmem S1x512x512 .f32) (harg5 : arg5.IsWhole) (arg6 : Memref sig .tc .vmem S512x2048 .f32) (harg6 : arg6.IsWhole) (hc0 : ¬cond0_0 i)
    (x0 : Vec F S1x2048x512 .f32) (x1 : Vec F S1x512x512 .f32) (x2 : Vec F S512x512 .f32) (xs0 : Vec F S512x2048 .f32) :
    out0_B_3 c i arg2 harg2 arg3 harg3 arg4 harg4 arg5 harg5 arg6 harg6 hc0 x0 x1 x2 xs0 = k0_pay2 x1 xs0 x0 := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  rw [View.canon_unit_zero hz3]
  simp only [View.readAt_eq_ld, harg2.read_unread, harg3.read_unread, harg6.read_unread, View.ld_unit_zero (S := S1x512x512) hz3,
    View.ld_unit_zero (S := S512x2048) hz2, View.ld_unit_zero (S := S1x2048x512) hz3]

/-- At the first tile of a batch the scratch is left holding the body's first stored value — the transposed keys — of the
    encoder block and the projection matrix. -/
theorem scratch_first (c : Dev nD) (i : grid0.Coords) (arg2 : Memref sig .tc .vmem S1x2048x512 .f32) (harg2 : arg2.IsWhole) (arg3 : Memref sig .tc .vmem S1x512x512 .f32) (harg3 : arg3.IsWhole) (arg4 : Memref sig .tc .vmem S512x512 .f32) (harg4 : arg4.IsWhole) (arg5 : Memref sig .tc .vmem S1x512x512 .f32) (harg5 : arg5.IsWhole) (arg6 : Memref sig .tc .vmem S512x2048 .f32) (harg6 : arg6.IsWhole) (hc0 : cond0_0 i)
    (x0 : Vec F S1x2048x512 .f32) (x1 : Vec F S1x512x512 .f32) (x2 : Vec F S512x512 .f32) :
    sout0_A_0 c i arg2 harg2 arg3 harg3 arg4 harg4 arg5 harg5 arg6 harg6 hc0 x0 x1 x2 = k0_pay1 x0 x2 := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  rw [View.canon_unit_zero hz2]
  simp only [View.readAt_eq_ld, harg2.read_unread, harg4.read_unread, View.ld_unit_zero (S := S1x2048x512) hz3,
    View.ld_unit_zero (S := S512x512) hz2]

/-- At the first tile of a batch the output block is the same second stored value, of the scratch the body has just
    written: the load of the scratch reads back the one store that covers it. -/
theorem out_first (c : Dev nD) (i : grid0.Coords) (arg2 : Memref sig .tc .vmem S1x2048x512 .f32) (harg2 : arg2.IsWhole) (arg3 : Memref sig .tc .vmem S1x512x512 .f32) (harg3 : arg3.IsWhole) (arg4 : Memref sig .tc .vmem S512x512 .f32) (harg4 : arg4.IsWhole) (arg5 : Memref sig .tc .vmem S1x512x512 .f32) (harg5 : arg5.IsWhole) (arg6 : Memref sig .tc .vmem S512x2048 .f32) (harg6 : arg6.IsWhole) (hc0 : cond0_0 i)
    (x0 : Vec F S1x2048x512 .f32) (x1 : Vec F S1x512x512 .f32) (x2 : Vec F S512x512 .f32) :
    out0_A_3 c i arg2 harg2 arg3 harg3 arg4 harg4 arg5 harg5 arg6 harg6 hc0 x0 x1 x2 = k0_pay2 x1 (k0_pay1 x0 x2) x0 := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_unit_zero hz3, View.readCov_unit_zero (S := S512x2048) _ hz2]
  simp only [View.readAt_eq_ld, harg2.read_unread, harg3.read_unread, harg4.read_unread, View.ld_unit_zero (S := S1x512x512) hz3,
    View.ld_unit_zero (S := S512x512) hz2, View.ld_unit_zero (S := S1x2048x512) hz3]

end Cert.Attention.Kernel

end
-- ==== Proof.LibKeepdims.lean ====
/-
  Layout operations of a `keepdims` reduction, read at an index given by coordinates, and a rank-2 float sum along one
  axis read at the extended reals.

  A vector of `a` entries viewed as an `a × 1` column holds entry `i` at `(i, 0)`; an `a × 1` column broadcast to
  `a × b` holds, at `(p, c)`, the column's entry `(p, 0)`; the sum of an `a × b` array along its second axis is, at
  row `r`, the sum over the `b` columns of the entries of that row, and along its first axis, at column `c`, the sum
  over the `a` rows of the entries of that column.  Indices are written with the literal-size constructors
  `ix1`, `ix2`, so that each lemma applies to a printed operation by unification.
-/
import Idealize.ShloMosaic.Lib.Pipeline.Value
import Idealize.ShloMosaic.Lib.ValueIdx
import Idealize.ShloMosaic.PureOps.Ideal.Laws

open scoped BigOperators

namespace Cert.LibKeepdims

open Idealize.ShloMosaic Idealize.ShloMosaic.ValueIdx

variable {α : Type}

/-- A vector cast to a column, `[a] → [a, 1]`, reads entry `i` at `(i, 0)`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along its unit axis, `[a, 1] → [a, b]`, reads at `(p, c)` the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

variable {φ : FTy}

/-- ROW SUMS. At the extended reals the float sum of an `a × b` array along its second axis is, at row `r`, the sum
    over the columns `c` of the entries `(r, c)`. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) := by
  refine (Ideal.multiReduction_add_single src acc h hφ hacc (ix1 r)).trans ?_
  refine Finset.sum_congr rfl fun c _ => congrArg src (funext fun ax => Fin.ext ?_)
  rw [h.lift_val]
  unfold Shape.Reduces.liftVal
  match ax with
  | ⟨0, _⟩ => rfl
  | ⟨1, _⟩ => rfl

/-- COLUMN SUMS. Along its first axis the sum is, at column `c`, the sum over the rows `r` of the entries `(r, c)`. -/
theorem multiReduction_add_cols {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src (funext fun ax => Fin.ext ?_)
  rw [h.lift_val]
  unfold Shape.Reduces.liftVal
  match ax with
  | ⟨0, _⟩ => rfl
  | ⟨1, _⟩ => rfl

end Cert.LibKeepdims
-- ==== Proof.LibRowMax.lean ====
/-
  A rank-2 float maximum along the second axis, read at the extended reals, and the bit pattern of `-∞`.

  The maximum of an `a × b` array along its second axis is, at row `r`, the fold of `max` from the accumulator's
  value over the columns `c` of the entries `(r, c)`.  Indices are written with the literal-size constructors
  `ix1`, `ix2`, so that the lemma applies to a printed operation by unification.
-/
import Idealize.ShloMosaic.Lib.Pipeline.Value
import Idealize.ShloMosaic.Lib.ValueIdx
import Idealize.ShloMosaic.PureOps.Ideal.Laws

open scoped BigOperators

namespace Cert.LibRowMax

open Idealize.ShloMosaic Idealize.ShloMosaic.ValueIdx

variable {φ : FTy}

/-- ROW MAXIMA. At the extended reals the float maximum of an `a × b` array along its second axis is, at row `r`,
    the fold of `max`, from the value the accumulator's pattern denotes, over the columns `c` of the entries `(r, c)`. -/
theorem multiReduction_max_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun c : Fin b => src (ix2 r c)) := by
  refine (Ideal.multiReduction_maximumf_single src acc h hφ hacc (ix1 r)).trans ?_
  refine congrArg (fun f : Fin b → EReal => (Finset.univ : Finset (Fin b)).fold max (Ideal.ofBits φ acc) f) (funext fun c => ?_)
  refine congrArg src (funext fun ax => Fin.ext ?_)
  rw [h.lift_val]
  unfold Shape.Reduces.liftVal
  match ax with
  | ⟨0, _⟩ => rfl
  | ⟨1, _⟩ => rfl

/-- The f32 pattern `0xFF800000` (sign set, exponent all ones, fraction zero) denotes `-∞`. -/
theorem ofBits_neg_inf_f32 : Ideal.ofBits .f32 0xFF800000#32 = ⊥ := by
  simp [Ideal.ofBits, Ideal.ieee]

end Cert.LibRowMax
-- ==== Proof.BodyArithmetic.lean ====
/-
  The kernel body's arithmetic, read at an index, at the extended reals.

  The body stores two values.  The first, stored into the carried scratch at the first decoder tile of a batch, is the
  transposed key matrix: at `(d, s)` the sum over the encoder features `e` of `enc[0, s, e] · W[e, d]`.  The second, stored
  into the output block, is computed from the decoder tile `q`, the scratch `kT` and the encoder block: with
  `lg r s = ∑ d, q[0, r, d] · kT[d, s]`, its entry `(0, r, e)` is
  `(∑ s, exp (lg r s − max over s' of lg r s') · enc[0, s, e]) / (∑ s, exp (lg r s − max over s' of lg r s'))`.
  A change of float format is the identity at the extended reals, so the narrowing of the weights and of the encoder
  block before the last product does not appear.
-/
import proofs.«141502_j4174708212176_2_alg».proof.Proof.Gen.KernelIdeal.Skeleton
import proofs.«141502_j4174708212176_2_alg».proof.Proof.LibKeepdims
import proofs.«141502_j4174708212176_2_alg».proof.Proof.LibRowMax
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.Attention.Kernel

open Idealize.ShloMosaic Idealize.ShloMosaic.ValueIdx Cert.KernelIdeal Cert.KernelIdeal.Gen

/-! ## The three matrix products, each into a zero accumulator, read at `(p, q)` -/

theorem keyDot_apply_lhs0 (i : S2048x512.Idx) (q : dot_S2048x512_S512x512_S2048x512_1_0_0_1_n_n.contr.Idx) : (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem keyDot_apply_rhs1 (i : S2048x512.Idx) (q : dot_S2048x512_S512x512_S2048x512_1_0_0_1_n_n.contr.Idx) : (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl
/-- The key projection: a `2048 × 512` by `512 × 512` product at `(p, q)` is the sum over the 512 contracted features. -/
theorem keyDot_apply {φ₁ φ₂ : FTy} (prec : Option ContractPrecision) (l : FVec Ideal S2048x512 φ₁) (r : FVec Ideal S512x512 φ₂) (p : Fin 2048) (q : Fin 512) :
    matmul dot_S2048x512_S512x512_S2048x512_1_0_0_1_n_n prec l r (constant S2048x512 .f32 0x00000000#32) (ix2 p q) = ∑ k : Fin 512, l (ix2 p k) * r (ix2 k q) := by
  simp only [matmul]
  rw [Ideal.matmul_constant_zero_apply, ← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 p q) ((contrEquiv1 dot_S2048x512_S512x512_S2048x512_1_0_0_1_n_n 512 rfl rfl).symm k) = ix2 p k := funext fun a => Fin.ext (by
    match a with
    | ⟨0, _⟩ => exact keyDot_apply_lhs0 _ _
    | ⟨1, _⟩ => exact (dot_S2048x512_S512x512_S2048x512_1_0_0_1_n_n.lhsIdx_val_of_single rfl _ _).trans hk)
  have er : dot_S2048x512_S512x512_S2048x512_1_0_0_1_n_n.rhsIdx (ix2 p q) ((contrEquiv1 dot_S2048x512_S512x512_S2048x512_1_0_0_1_n_n 512 rfl rfl).symm k) = ix2 k q := funext fun a => Fin.ext (by
    match a with
    | ⟨0, _⟩ => exact (dot_S2048x512_S512x512_S2048x512_1_0_0_1_n_n.rhsIdx_val_of_single rfl _ _).trans hk
    | ⟨1, _⟩ => exact keyDot_apply_rhs1 _ _)
  rw [el, er]

theorem scoreDot_apply_lhs0 (i : S512x2048.Idx) (q : dot_S512x512_S512x2048_S512x2048_1_0_0_1_n_n.contr.Idx) : (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
theorem scoreDot_apply_rhs1 (i : S512x2048.Idx) (q : dot_S512x512_S512x2048_S512x2048_1_0_0_1_n_n.contr.Idx) : (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl
/-- The scores: a `512 × 512` by `512 × 2048` product at `(p, q)` is the sum over the 512 contracted features. -/
theorem scoreDot_apply {φ₁ φ₂ : FTy} (prec : Option ContractPrecision) (l : FVec Ideal S512x512 φ₁) (r : FVec Ideal S512x2048 φ₂) (p : Fin 512) (q : Fin 2048) :
    matmul dot_S512x512_S512x2048_S512x2048_1_0_0_1_n_n prec l r (constant S512x2048 .f32 0x00000000#32) (ix2 p q) = ∑ k : Fin 512, l (ix2 p k) * r (ix2 k q) := by
  simp only [matmul]
  rw [Ideal.matmul_constant_zero_apply, ← Equiv.sum_comp (contrEquiv1 dot_S512x512_S512x2048_S512x2048_1_0_0_1_n_n 512 rfl rfl).symm]
  refine Finset.sum_congr rfl fun k _ => ?_
  have hk := contrEquiv1_symm_val dot_S512x512_S512x2048_S512x2048_1_0_0_1_n_n 512 rfl rfl k
  have el : dot_S512x512_S512x2048_S512x2048_1_0_0_1_n_n.lhsIdx (ix2 p q) ((contrEquiv1 dot_S512x512_S512x2048_S512x2048_1_0_0_1_n_n 512 rfl rfl).symm k) = ix2 p k := funext fun a => Fin.ext (by
    match a with
    | ⟨0, _⟩ => exact scoreDot_apply_lhs0 _ _
    | ⟨1, _⟩ => exact (dot_S512x512_S512x2048_S512x2048_1_0_0_1_n_n.lhsIdx_val_of_single rfl _ _).trans hk)
  have er : dot_S512x512_S512x2048_S512x2048_1_0_0_1_n_n.rhsIdx (ix2 p q) ((contrEquiv1 dot_S512x512_S512x2048_S512x2048_1_0_0_1_n_n 512 rfl rfl).symm k) = ix2 k q := funext fun a => Fin.ext (by
    match a with
    | ⟨0, _⟩ => exact (dot_S512x512_S512x2048_S512x2048_1_0_0_1_n_n.rhsIdx_val_of_single rfl _ _).trans hk
    | ⟨1, _⟩ => exact scoreDot_apply_rhs1 _ _)
  rw [el, er]

theorem contextDot_apply_lhs0 (i : S512x512.Idx) (q : dot_S512x2048_S2048x512_S512x512_1_0_0_1_n_n.contr.Idx) : (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
theorem contextDot_apply_rhs1 (i : S512x512.Idx) (q : dot_S512x2048_S2048x512_S512x512_1_0_0_1_n_n.contr.Idx) : (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl
/-- The weighted sum of encoder states: a `512 × 2048` by `2048 × 512` product at `(p, q)` is the sum over the 2048 encoder positions. -/
theorem contextDot_apply {φ₁ φ₂ : FTy} (prec : Option ContractPrecision) (l : FVec Ideal S512x2048 φ₁) (r : FVec Ideal S2048x512 φ₂) (p : Fin 512) (q : Fin 512) :
    matmul dot_S512x2048_S2048x512_S512x512_1_0_0_1_n_n prec l r (constant S512x512 .f32 0x00000000#32) (ix2 p q) = ∑ k : Fin 2048, l (ix2 p k) * r (ix2 k q) := by
  simp only [matmul]
  rw [Ideal.matmul_constant_zero_apply, ← Equiv.sum_comp (contrEquiv1 dot_S512x2048_S2048x512_S512x512_1_0_0_1_n_n 2048 rfl rfl).symm]
  refine Finset.sum_congr rfl fun k _ => ?_
  have hk := contrEquiv1_symm_val dot_S512x2048_S2048x512_S512x512_1_0_0_1_n_n 2048 rfl rfl k
  have el : dot_S512x2048_S2048x512_S512x512_1_0_0_1_n_n.lhsIdx (ix2 p q) ((contrEquiv1 dot_S512x2048_S2048x512_S512x512_1_0_0_1_n_n 2048 rfl rfl).symm k) = ix2 p k := funext fun a => Fin.ext (by
    match a with
    | ⟨0, _⟩ => exact contextDot_apply_lhs0 _ _
    | ⟨1, _⟩ => exact (dot_S512x2048_S2048x512_S512x512_1_0_0_1_n_n.lhsIdx_val_of_single rfl _ _).trans hk)
  have er : dot_S512x2048_S2048x512_S512x512_1_0_0_1_n_n.rhsIdx (ix2 p q) ((contrEquiv1 dot_S512x2048_S2048x512_S512x512_1_0_0_1_n_n 2048 rfl rfl).symm k) = ix2 k q := funext fun a => Fin.ext (by
    match a with
    | ⟨0, _⟩ => exact (dot_S512x2048_S2048x512_S512x512_1_0_0_1_n_n.rhsIdx_val_of_single rfl _ _).trans hk
    | ⟨1, _⟩ => exact contextDot_apply_rhs1 _ _)
  rw [el, er]

/-! ## The value stored into the scratch: the transposed keys -/

/-- The first stored value at `(d, s)`: the key of encoder position `s` at feature `d`. -/
theorem keyT_apply (x0 : Vec Ideal S1x2048x512 .f32) (x2 : Vec Ideal S512x512 .f32) (d : Fin 512) (s : Fin 2048) :
    k0_pay1 (F := Ideal) x0 x2 (ix2 d s) = ∑ e : Fin 512, x0 (ix3 (0 : Fin 1) s e) * x2 (ix2 e d) := by
  unfold k0_pay1
  rw [shapeCast_self, transpose_ix2_apply, keyDot_apply]
  refine Finset.sum_congr rfl fun e _ => ?_
  rw [shapeCast_1ab_ab_apply]

/-! ## The value stored into the output block, stage by stage -/

section Output

variable (x1 : FVec Ideal S1x512x512 .f32) (xs : FVec Ideal S512x2048 .f32) (x0 : FVec Ideal S1x2048x512 .f32)

/-- The scores of the tile's 512 decoder positions against the 2048 encoder positions. -/
def lg (r : Fin 512) (s : Fin 2048) : EReal := ∑ d : Fin 512, x1 (ix3 (0 : Fin 1) r d) * xs (ix2 d s)

/-- A row's maximum score, folded from `-∞`. -/
def mx (r : Fin 512) : EReal := (Finset.univ : Finset (Fin 2048)).fold max ⊥ (fun s => lg x1 xs r s)

/-- The unnormalised weight. -/
def wt (r : Fin 512) (s : Fin 2048) : EReal := Ideal.exp (lg x1 xs r s - mx x1 xs r)

/-- The printed score matrix. -/
def scoreV : FVec Ideal S512x2048 .f32 :=
  matmul dot_S512x512_S512x2048_S512x2048_1_0_0_1_n_n (some .fp32) (shapeCast S512x512 x1 shapeCasts_S1x512x512_S512x512) xs (constant S512x2048 .f32 0x00000000#32)

theorem scoreV_apply (r : Fin 512) (s : Fin 2048) : scoreV x1 xs (ix2 r s) = lg x1 xs r s := by
  unfold scoreV lg
  rw [scoreDot_apply]
  refine Finset.sum_congr rfl fun d _ => ?_
  rw [shapeCast_1ab_ab_apply]

/-- The printed row maxima. -/
def rowMaxV : FVec Ideal S512 .f32 :=
  multiReduction .maximumf [1] S512 (scoreV x1 xs) 0xFF800000#32 reduces_S512x2048_S512 (.inl rfl) rfl

theorem rowMaxV_apply (r : Fin 512) : rowMaxV x1 xs (ix1 r) = mx x1 xs r :=
  (Cert.LibRowMax.multiReduction_max_rows (scoreV x1 xs) 0xFF800000#32 reduces_S512x2048_S512 (.inl rfl) rfl r).trans (by
    unfold mx
    rw [Cert.LibRowMax.ofBits_neg_inf_f32]
    simp only [scoreV_apply])

/-- The printed weights: the exponential of the scores less their row maxima, broadcast along the row. -/
def weightV : FVec Ideal S512x2048 .f32 :=
  exp (subf (scoreV x1 xs) (broadcastTo S512x2048 (shapeCast S512x1 (rowMaxV x1 xs) shapeCasts_S512_S512x1) broadcasts_S512x1_S512x2048))

theorem weightV_apply (r : Fin 512) (s : Fin 2048) : weightV x1 xs (ix2 r s) = wt x1 xs r s := by
  unfold weightV wt
  show Ideal.exp (scoreV x1 xs (ix2 r s) - broadcastTo S512x2048 _ broadcasts_S512x1_S512x2048 (ix2 r s)) = _
  rw [Cert.LibKeepdims.broadcastTo_a1_ab_apply, Cert.LibKeepdims.shapeCast_a_a1_apply, rowMaxV_apply, scoreV_apply]

/-- The printed row sums of the weights. -/
def massV : FVec Ideal S512 .f32 :=
  multiReduction .add [1] S512 (weightV x1 xs) 0x00000000#32 reduces_S512x2048_S512 (.inl rfl) rfl

theorem massV_apply (r : Fin 512) : massV x1 xs (ix1 r) = ∑ s : Fin 2048, wt x1 xs r s :=
  (Cert.LibKeepdims.multiReduction_add_rows (weightV x1 xs) 0x00000000#32 reduces_S512x2048_S512 (.inl rfl) rfl r).trans (by
    simp only [weightV_apply])

set_option maxRecDepth 65536 in
/-- The stored value is the quotient of the weighted sum by the broadcast row sums, with a unit axis added. -/
theorem pay2_eq :
    k0_pay2 (F := Ideal) x1 xs x0 = shapeCast S1x512x512 (divf
      (matmul dot_S512x2048_S2048x512_S512x512_1_0_0_1_n_n none (truncf .bf16 (weightV x1 xs) bitsLt_bf16_f32)
        (truncf .bf16 (shapeCast S2048x512 x0 shapeCasts_S1x2048x512_S2048x512) bitsLt_bf16_f32) (constant S512x512 .f32 0x00000000#32))
      (broadcastTo S512x512 (shapeCast S512x1 (massV x1 xs) shapeCasts_S512_S512x1) broadcasts_S512x1_S512x512))
      shapeCasts_S512x512_S1x512x512 := rfl

/-- THE OUTPUT BLOCK at `(0, r, e)`: the weighted sum of the encoder block's rows, divided by the row's total weight. -/
theorem out_apply (r : Fin 512) (e : Fin 512) :
    k0_pay2 (F := Ideal) x1 xs x0 (ix3 (0 : Fin 1) r e)
      = Ideal.div (∑ s : Fin 2048, wt x1 xs r s * x0 (ix3 (0 : Fin 1) s e)) (∑ s : Fin 2048, wt x1 xs r s) := by
  rw [pay2_eq, shapeCast_ab_1ab_apply, divf_apply, contextDot_apply, Cert.LibKeepdims.broadcastTo_a1_ab_apply,
    Cert.LibKeepdims.shapeCast_a_a1_apply, massV_apply]
  simp only [truncf_apply, weightV_apply, shapeCast_1ab_ab_apply]

end Output

end Cert.Attention.Kernel

end
-- ==== Proof.AttentionSpec.lean ====
/-
  The attention context as one function of the three argument arrays, index by index, over the extended reals.

  With encoder states `E[b, s, e]`, decoder states `D[b, t, d]` and the projection `W[e, d]`:
    key    b s d = ∑ e, E[b, s, e] · W[e, d]
    score  b t s = ∑ d, D[b, t, d] · key b s d
    weight b t s = exp (score b t s − max over s' of score b t s')
    mass   b t   = ∑ s, weight b t s
  and the context vector at `[b, t, e]` in two arrangements:
    `context`    = (∑ s, weight b t s · E[b, s, e]) / mass b t        (normalise after the weighted sum)
    `contextRef` = ∑ s, (weight b t s / mass b t) · E[b, s, e]         (normalise each weight first)
  They are equal when the arguments are real numbers (SoftmaxAlgebra).
-/
import Idealize.ShloMosaic.PureOps.Ideal
import Idealize.ShloMosaic.Lib.ValueIdx

noncomputable section

namespace Cert.Attention

open Idealize.ShloMosaic Idealize.ShloMosaic.ValueIdx

/-- The shape of the encoder states, the decoder states and the result: batch × position × feature. -/
abbrev A3 : Shape := ⟨3, ![8, 2048, 512]⟩
/-- The shape of the projection matrix. -/
abbrev A2 : Shape := ⟨2, ![512, 512]⟩

/-- The projected key of encoder position `s` of batch `b`, at feature `d`. -/
def key (E : A3.Idx → EReal) (W : A2.Idx → EReal) (b : Fin 8) (s : Fin 2048) (d : Fin 512) : EReal :=
  ∑ e : Fin 512, E (ix3 b s e) * W (ix2 e d)

/-- The attention score of decoder position `t` against encoder position `s`. -/
def score (E D : A3.Idx → EReal) (W : A2.Idx → EReal) (b : Fin 8) (t s : Fin 2048) : EReal :=
  ∑ d : Fin 512, D (ix3 b t d) * key E W b s d

/-- The maximum of a row of 2048 extended reals, folded from `-∞`. -/
def rowMax (f : Fin 2048 → EReal) : EReal := (Finset.univ : Finset (Fin 2048)).fold max ⊥ f

/-- The unnormalised softmax weight: the exponential of the score less the row's maximum. -/
def weight (E D : A3.Idx → EReal) (W : A2.Idx → EReal) (b : Fin 8) (t s : Fin 2048) : EReal :=
  Ideal.exp (score E D W b t s - rowMax (score E D W b t))

/-- The row's total weight. -/
def mass (E D : A3.Idx → EReal) (W : A2.Idx → EReal) (b : Fin 8) (t : Fin 2048) : EReal :=
  ∑ s : Fin 2048, weight E D W b t s

/-- The context vector, normalised AFTER the weighted sum of the encoder states. -/
def context (E D : A3.Idx → EReal) (W : A2.Idx → EReal) : A3.Idx → EReal := fun i =>
  Ideal.div (∑ s : Fin 2048, weight E D W (i 0) (i 1) s * E (ix3 (i 0) s (i 2))) (mass E D W (i 0) (i 1))

/-- The context vector with each weight normalised BEFORE the weighted sum. -/
def contextRef (E D : A3.Idx → EReal) (W : A2.Idx → EReal) : A3.Idx → EReal := fun i =>
  ∑ s : Fin 2048, Ideal.div (weight E D W (i 0) (i 1) s) (mass E D W (i 0) (i 1)) * E (ix3 (i 0) s (i 2))

end Cert.Attention

end
-- ==== Proof.BlockContext.lean ====
/-
  One grid point's output block is the attention context restricted to that block.

  Batch `b`'s encoder block is `enc[b, ·, ·]`; decoder tile `q` of batch `b` holds the decoder positions `512 q + r`.
  With the scratch holding the transposed keys of batch `b`, the body's output at `(0, r, e)` is the context vector
  at `[b, 512 q + r, e]`: its scores are the specification's scores (a sum over the features of the decoder state
  times the key), hence so are the row maximum, the weights and their total.
-/
import proofs.«141502_j4174708212176_2_alg».proof.Proof.BodyArithmetic
import proofs.«141502_j4174708212176_2_alg».proof.Proof.AttentionSpec

noncomputable section

open scoped BigOperators

namespace Cert.Attention.Kernel

open Idealize.ShloMosaic Idealize.ShloMosaic.ValueIdx Cert.KernelIdeal Cert.KernelIdeal.Gen Cert.Attention

/-- Row `r` of decoder tile `q` is decoder position `512 q + r`. -/
def row (q : Fin 4) (r : Fin 512) : Fin 2048 := ⟨512 * q.val + r.val, by have := q.isLt; have := r.isLt; omega⟩

/-- Batch `b`'s block of the encoder states. -/
def encBlock (E : A3.Idx → EReal) (b : Fin 8) : Vec Ideal S1x2048x512 .f32 := fun y => E (ix3 b (y 1) (y 2))

/-- Tile `q` of batch `b` of the decoder states. -/
def decBlock (D : A3.Idx → EReal) (b : Fin 8) (q : Fin 4) : Vec Ideal S1x512x512 .f32 := fun y => D (ix3 b (row q (y 1)) (y 2))

variable (E D : A3.Idx → EReal) (W : A2.Idx → EReal) (b : Fin 8) (q : Fin 4)

/-- The transposed keys of batch `b`, as the body stores them from the batch's encoder block. -/
def keysT : Vec Ideal S512x2048 .f32 := k0_pay1 (F := Ideal) (encBlock E b) W

theorem keysT_apply (d : Fin 512) (s : Fin 2048) : keysT E W b (ix2 d s) = key E W b s d := by
  unfold keysT key
  rw [keyT_apply]
  rfl

/-- The tile's scores against the batch's transposed keys are the specification's scores. -/
theorem lg_eq (r : Fin 512) (s : Fin 2048) : lg (decBlock D b q) (keysT E W b) r s = score E D W b (row q r) s := by
  unfold lg score
  refine Finset.sum_congr rfl fun d _ => ?_
  rw [keysT_apply]
  rfl

theorem mx_eq (r : Fin 512) : mx (decBlock D b q) (keysT E W b) r = rowMax (score E D W b (row q r)) := by
  unfold mx rowMax
  refine congrArg (fun f : Fin 2048 → EReal => (Finset.univ : Finset (Fin 2048)).fold max ⊥ f) (funext fun s => ?_)
  exact lg_eq E D W b q r s

theorem wt_eq (r : Fin 512) (s : Fin 2048) : wt (decBlock D b q) (keysT E W b) r s = weight E D W b (row q r) s := by
  unfold wt weight
  rw [lg_eq, mx_eq]

/-- THE BLOCK: the body's output at `(0, r, e)`, from tile `q` of batch `b`, the batch's transposed keys and the batch's
    encoder block, is the context vector at `[b, 512 q + r, e]`. -/
theorem block_context (r e : Fin 512) :
    k0_pay2 (F := Ideal) (decBlock D b q) (keysT E W b) (encBlock E b) (ix3 (0 : Fin 1) r e) = context E D W (ix3 b (row q r) e) := by
  rw [out_apply]
  unfold context mass
  simp only [wt_eq]
  rfl

end Cert.Attention.Kernel

end
-- ==== Proof.ArrayContext.lean ====
/-
  The kernel's result array after the run is the attention context of the argument arrays.

  The grid has 8 × 4 points, point `t` working on batch `t / 4` and decoder tile `t % 4`.  The encoder window's block at
  `t` is batch `t / 4` of the encoder states, the decoder window's block is tile `t % 4` of that batch, the projection
  window's block is the whole matrix, and the output window's block is rows `512 (t % 4) …` of batch `t / 4` of the result.
  By induction on the point, the carried scratch holds after point `t` the transposed keys of batch `t / 4`: the first
  tile of a batch stores them, the later tiles leave them, and the batch does not change inside a group of four points.
  So every point writes back its block of the context, the 32 blocks cover the result array, and the array ends
  holding the context.
-/
import proofs.«141502_j4174708212176_2_alg».proof.Proof.Gen.KernelIdeal.Value
import proofs.«141502_j4174708212176_2_alg».proof.Proof.BodyCases
import proofs.«141502_j4174708212176_2_alg».proof.Proof.BlockContext
import Idealize.ShloMosaic.Lib.Pipeline.Value

set_option maxRecDepth 16384

noncomputable section

open scoped BigOperators

namespace Cert.Attention.Kernel

open Idealize.ShloMosaic Idealize.ShloMosaic.TcCoe Idealize.ShloMosaic.ValueIdx Idealize.SL.Sem
open Cert.KernelIdeal Cert.KernelIdeal.Gen Cert.Attention
open Idealize.ShloMosaic.Pipeline (Dat)

variable (m : (ℓ : Loc nD τ sig) → Buf (Elt Ideal) ℓ) (ρ : Dev nD → PrngReg)

/-- The three argument arrays as launched. -/
abbrev encA (c : Dev nD) : A3.Idx → EReal := m ((c : Thread nD τ).loc main_arg0)
abbrev decA (c : Dev nD) : A3.Idx → EReal := m ((c : Thread nD τ).loc main_arg1)
abbrev projA (c : Dev nD) : A2.Idx → EReal := m ((c : Thread nD τ).loc main_arg2)

/-- The batch and the decoder tile of grid point `t`. -/
def bOf (t : Fin cfg0.N) : Fin 8 := ⟨t.val / 4, by have h : t.val < 32 := lt_of_lt_of_eq t.isLt (show cfg0.N = 32 from N_0); omega⟩
def qOf (t : Fin cfg0.N) : Fin 4 := ⟨t.val % 4, Nat.mod_lt _ (by decide)⟩

/-- The printed index maps, decided over the 32 grid points. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = t.val % 4 ∧ win0_1.index t (2 : Fin 3) = 0
    ∧ win0_2.index t (0 : Fin 2) = 0 ∧ win0_2.index t (1 : Fin 2) = 0
    ∧ win0_3.index t (0 : Fin 3) = t.val / 4 ∧ win0_3.index t (1 : Fin 3) = t.val % 4 ∧ win0_3.index t (2 : Fin 3) = 0 :=
  (by decide +kernel : ∀ t : Fin grid0.N, _)

/-! ## The input windows' blocks -/

theorem iblk0_eq (c : Dev nD) (t : Fin cfg0.N) : (iblk m c 0 t : Vec Ideal S1x2048x512 .f32) = encBlock (encA m c) (bOf t) := by
  obtain ⟨e0, e1, e2, -⟩ := idx_facts t
  funext y
  unfold iblk
  rw [View.read_apply]
  show V m c main_arg0 (((cfg0.win 0).blk t).view.emb y) = m ((c : Thread nD τ).loc main_arg0) (ix3 (bOf t) (y 1) (y 2))
  refine congrArg (m ((c : Thread nD τ).loc main_arg0)) (funext fun a => Fin.ext ?_)
  match a with
  | ⟨0, _⟩ => show win0_0.index t (0 : Fin 3) * 1 + 1 * (y 0).val = t.val / 4; have hy : (y 0).val < 1 := (y 0).isLt; omega
  | ⟨1, _⟩ => show win0_0.index t (1 : Fin 3) * 2048 + 1 * (y 1).val = (y 1).val; omega
  | ⟨2, _⟩ => show win0_0.index t (2 : Fin 3) * 512 + 1 * (y 2).val = (y 2).val; omega

theorem iblk1_eq (c : Dev nD) (t : Fin cfg0.N) : (iblk m c 1 t : Vec Ideal S1x512x512 .f32) = decBlock (decA m c) (bOf t) (qOf t) := by
  obtain ⟨-, -, -, e0, e1, e2, -⟩ := idx_facts t
  funext y
  unfold iblk
  rw [View.read_apply]
  show V m c main_arg1 (((cfg0.win 1).blk t).view.emb y) = m ((c : Thread nD τ).loc main_arg1) (ix3 (bOf t) (row (qOf t) (y 1)) (y 2))
  refine congrArg (m ((c : Thread nD τ).loc main_arg1)) (funext fun a => Fin.ext ?_)
  match a with
  | ⟨0, _⟩ => show win0_1.index t (0 : Fin 3) * 1 + 1 * (y 0).val = t.val / 4; have hy : (y 0).val < 1 := (y 0).isLt; omega
  | ⟨1, _⟩ => show win0_1.index t (1 : Fin 3) * 512 + 1 * (y 1).val = 512 * (t.val % 4) + (y 1).val; omega
  | ⟨2, _⟩ => show win0_1.index t (2 : Fin 3) * 512 + 1 * (y 2).val = (y 2).val; omega

theorem iblk2_eq (c : Dev nD) (t : Fin cfg0.N) : (iblk m c 2 t : Vec Ideal S512x512 .f32) = projA m c := by
  obtain ⟨-, -, -, -, -, -, e0, e1, -⟩ := idx_facts t
  funext y
  unfold iblk
  rw [View.read_apply]
  show V m c main_arg2 (((cfg0.win 2).blk t).view.emb y) = m ((c : Thread nD τ).loc main_arg2) y
  refine congrArg (m ((c : Thread nD τ).loc main_arg2)) (funext fun a => Fin.ext ?_)
  match a with
  | ⟨0, _⟩ => show win0_2.index t (0 : Fin 2) * 512 + 1 * (y 0).val = (y 0).val; omega
  | ⟨1, _⟩ => show win0_2.index t (1 : Fin 2) * 512 + 1 * (y 1).val = (y 1).val; omega

/-! ## The carried scratch after each point -/

/-- At the first tile of a batch the scratch is left at the batch's transposed keys. -/
theorem scratch_first_point (c : Dev nD) (t : Fin cfg0.N) (h0 : t.val % 4 = 0) :
    (outsAt0 m c t.val t.isLt).2 = keysT (encA m c) (projA m c) (bOf t) := by
  rw [outsAt0_A m c t h0]
  dsimp only
  refine (scratch_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)).trans ?_
  unfold keysT
  rw [iblk0_eq m c t, iblk2_eq m c t]

/-- After ANY point the scratch holds the transposed keys of the point's batch: by induction on the point. -/
theorem scratch_eq (c : Dev nD) : ∀ (n : ℕ) (h : n < cfg0.N), (outsAt0 m c n h).2 = keysT (encA m c) (projA m c) (bOf ⟨n, h⟩)
  | 0, h => scratch_first_point m c ⟨0, h⟩ rfl
  | n + 1, h => by
    by_cases h0 : (n + 1) % 4 = 0
    · exact scratch_first_point m c ⟨n + 1, h⟩ h0
    · rw [outsAt0_B m c ⟨n + 1, h⟩ h0]
      dsimp only
      unfold sout0_B_0
      show (outsAt0 m c n _).2 = _
      rw [scratch_eq c n]
      have hb : bOf ⟨n, Nat.lt_of_succ_lt h⟩ = bOf ⟨n + 1, h⟩ := Fin.ext (by show n / 4 = (n + 1) / 4; omega)
      rw [hb]

/-! ## The output block at each point -/

/-- At every point the output's staging buffer is left at the body's output value of the point's decoder tile, its
    batch's transposed keys and its batch's encoder block. -/
theorem out_eq (c : Dev nD) (t : Fin cfg0.N) :
    (outsAt0 m c t.val t.isLt).1
      = k0_pay2 (F := Ideal) (decBlock (decA m c) (bOf t) (qOf t)) (keysT (encA m c) (projA m c) (bOf t)) (encBlock (encA m c) (bOf t)) := by
  by_cases h0 : t.val % 4 = 0
  · rw [outsAt0_A m c t h0]
    dsimp only
    refine (out_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)).trans ?_
    unfold keysT
    rw [iblk0_eq m c t, iblk1_eq m c t, iblk2_eq m c t]
  · rw [outsAt0_B m c t h0]
    dsimp only
    refine (out_later (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2).trans ?_
    rw [scratch_eq m c (t.val - 1) (Nat.lt_of_le_of_lt (Nat.sub_le _ _) t.isLt), iblk0_eq m c t, iblk1_eq m c t]
    have hb : bOf ⟨t.val - 1, Nat.lt_of_le_of_lt (Nat.sub_le _ _) t.isLt⟩ = bOf t := Fin.ext (by show (t.val - 1) / 4 = t.val / 4; omega)
    rw [hb]

/-- The output value at an index of the block is the context at the index of the array the block places it at. -/
theorem block_at (c : Dev nD) (t : Fin cfg0.N) (j : S1x512x512.Idx) :
    k0_pay2 (F := Ideal) (decBlock (decA m c) (bOf t) (qOf t)) (keysT (encA m c) (projA m c) (bOf t)) (encBlock (encA m c) (bOf t)) j
      = context (encA m c) (decA m c) (projA m c) (((cfg0.win 3).blk t).view.emb j) := by
  obtain ⟨-, -, -, -, -, -, -, -, e0, e1, e2⟩ := idx_facts t
  obtain ⟨u, r, e, rfl⟩ : ∃ (u : Fin 1) (r e : Fin 512), j = ix3 u r e := ⟨j 0, j 1, j 2, eq_ix3 j⟩
  obtain rfl : u = 0 := Subsingleton.elim _ _
  rw [block_context]
  refine congrArg (context (encA m c) (decA m c) (projA m c)) (funext fun a => Fin.ext ?_)
  match a with
  | ⟨0, _⟩ => show t.val / 4 = win0_3.index t (0 : Fin 3) * 1 + 1 * 0; omega
  | ⟨1, _⟩ => show 512 * (t.val % 4) + r.val = win0_3.index t (1 : Fin 3) * 512 + 1 * r.val; omega
  | ⟨2, _⟩ => show e.val = win0_3.index t (2 : Fin 3) * 512 + 1 * e.val; omega

/-- WHAT POINT `t` WRITES BACK is block `t` of the context of the argument arrays. -/
theorem flushed_eq (c : Dev nD) (t : Fin cfg0.N) :
    (dats m 0 c).flushed 3 t = ((cfg0.win 3).blk t).view.read (Elt Ideal) (context (encA m c) (decA m c) (projA m c)) := by
  show (cfg0.win 3).cut (grid0.coords t) ((dats m 0 c).after 3 t) = _
  rw [after0_3, out_eq]
  funext j
  exact block_at m c t j

/-! ## The blocks cover the array -/

theorem mem_blk (t : Fin cfg0.N) (i : S8x2048x512.Idx) :
    i ∈ ((cfg0.win 3).blk t).view.set ↔ ∀ a : Fin 3, win0_3.index t a * S1x512x512.size a ≤ (i a).val ∧ (i a).val < win0_3.index t a * S1x512x512.size a + S1x512x512.size a := by
  show i ∈ ((View.whole main_v0).slice (win0_3.rect t)).set ↔ _
  rw [View.set_slice_whole, Rect.mem_set_unit]
  exact Iff.rfl

/-- Every index `[b, p, e]` of the result lies in the block of point `4 b + p / 512`. -/
theorem cover (i : S8x2048x512.Idx) : ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 512 := (i 2).isLt
  have hN : cfg0.N = 32 := N_0
  let t : Fin cfg0.N := ⟨4 * (i 0).val + (i 1).val / 512, by rw [hN]; omega⟩
  have ht : t.val = 4 * (i 0).val + (i 1).val / 512 := rfl
  obtain ⟨-, -, -, -, -, -, -, -, e0, e1, e2⟩ := idx_facts t
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 512 ≤ (i 2).val ∧ (i 2).val < win0_3.index t (2 : Fin 3) * 512 + 512; omega

/-- THE ARRAY after the run: the context of the argument arrays. -/
theorem final (c : Dev nD) : (dats m 0 c).arrAt 3 cfg0.N = context (encA m c) (decA m c) (projA m c) :=
  (dats m 0 c).arrAt_eq_of_cover 3 (context (encA m c) (decA m c) (projA m c)) (fun t _ => flushed_eq m c t) cover

/-- The run, read: the result array at the context of the arguments, the arguments unchanged. -/
theorem run : θ_run defs (onTc (τ := τ) (main (F := Ideal))) ⟨m, fun _ => 0, ρ⟩ fun r => ∀ c : Dev nD,
      r.2.mem ((c : Thread nD τ).loc main_v0) = context (encA m c) (decA m c) (projA m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.Attention.Kernel

end
-- ==== Proof.ReferenceContext.lean ====
/-
  The reference program, read one operation at a time, computes the specification's `contextRef`:
  keys, scores, the row maximum (a fold of `max` from -∞), the exponentials of the shifted scores, their row
  sums, the normalised weights, and the weighted sum of the encoder states.
-/
import proofs.«141502_j4174708212176_2_alg».proof.Proof.Gen.ReferenceIdeal.Read
import proofs.«141502_j4174708212176_2_alg».proof.Proof.AttentionSpec
import Idealize.ShloMosaic.Lib.ValueIdx
import Idealize.ShloMosaic.PureOps.Ideal.Laws
import Idealize.ShloMosaic.PureOps.Reduce

noncomputable section

namespace Cert.Attention

open Cert.ReferenceIdeal Cert.ReferenceIdeal.Read Idealize.ShloMosaic Idealize.ShloMosaic.ValueIdx

/-- The bit pattern `0xFF800000` is -∞. -/
private theorem ofBits_negInf_f32 : Ideal.ofBits .f32 0xFF800000#32 = (⊥ : EReal) := by
  simp [Ideal.ofBits, Ideal.ieee]

/-- The first product, at `[b, s, d]`, is the projected key. -/
theorem reference_key (x0 : (⟨S8x2048x512, .f32⟩ : BufTy).Contents (Elt Ideal)) (x2 : (⟨S512x512, .f32⟩ : BufTy).Contents (Elt Ideal))
    (b : Fin 8) (s : Fin 2048) (d : Fin 512) :
    val_main_v0 (F := Ideal) x0 x2 (ix3 b s d) = key x0 x2 b s d := by
  rw [val_main_v0_apply]
  unfold key
  refine Finset.sum_congr rfl fun e _ => ?_
  have el : lidx_main_v0 (ix3 b s d) e = ix3 b s e :=
    funext fun a => Fin.ext (by match a with | ⟨0, _⟩ => rfl | ⟨1, _⟩ => rfl | ⟨2, _⟩ => rfl)
  have er : ridx_main_v0 (ix3 b s d) e = ix2 e d :=
    funext fun a => Fin.ext (by match a with | ⟨0, _⟩ => rfl | ⟨1, _⟩ => rfl)
  rw [el, er]

/-- The second product, at `[b, t, s]`, is the score. -/
theorem reference_score (x0 x1 : (⟨S8x2048x512, .f32⟩ : BufTy).Contents (Elt Ideal)) (x2 : (⟨S512x512, .f32⟩ : BufTy).Contents (Elt Ideal))
    (b : Fin 8) (t s : Fin 2048) :
    val_main_v1 (F := Ideal) x0 x1 x2 (ix3 b t s) = score x0 x1 x2 b t s := by
  rw [val_main_v1_apply]
  unfold score
  refine Finset.sum_congr rfl fun d _ => ?_
  have el : lidx_main_v1 (ix3 b t s) d = ix3 b t d :=
    funext fun a => Fin.ext (by match a with | ⟨0, _⟩ => rfl | ⟨1, _⟩ => rfl | ⟨2, _⟩ => rfl)
  have er : ridx_main_v1 (ix3 b t s) d = ix3 b s d :=
    funext fun a => Fin.ext (by match a with | ⟨0, _⟩ => rfl | ⟨1, _⟩ => rfl | ⟨2, _⟩ => rfl)
  rw [el, er, reference_key]

/-- The reduced index `[b, t]` with coordinate `s` put back on the last axis is `[b, t, s]`. -/
private theorem lift_last (h : S8x2048x2048.Reduces [2] S8x2048) (b : Fin 8) (t : Fin 2048) (s : Fin (S8x2048x2048.size 2)) :
    h.lift (ix2 b t) s = ix3 b t (⟨s.val, s.isLt⟩ : Fin 2048) :=
  funext fun a => Fin.ext (by match a with | ⟨0, _⟩ => rfl | ⟨1, _⟩ => rfl | ⟨2, _⟩ => rfl)

/-- The maximum reduction, joined with -∞ once more, at `[b, t]` is the row maximum of the scores. -/
theorem reference_rowMax (x0 x1 : (⟨S8x2048x512, .f32⟩ : BufTy).Contents (Elt Ideal)) (x2 : (⟨S512x512, .f32⟩ : BufTy).Contents (Elt Ideal))
    (b : Fin 8) (t : Fin 2048) :
    val_main_v4 (F := Ideal) x0 x1 x2 (ix2 b t) = rowMax (score x0 x1 x2 b t) := by
  have h : S8x2048x2048.Reduces [2] S8x2048 := by decide
  rw [val_main_v4_apply, val_main_v3_apply, val_main_cst_0_apply]
  unfold val_main_v2
  rw [Host.reduce_eq_fold_single FloatOps.maximumf _ _ _ h, val_main_cst_apply]
  have hf : (val_main_v1 (F := Ideal) x0 x1 x2 ∘ h.lift (ix2 b t)) = score x0 x1 x2 b t :=
    funext fun s => by
      show val_main_v1 (F := Ideal) x0 x1 x2 (h.lift (ix2 b t) s) = _
      rw [lift_last, reference_score]
      rfl
  rw [hf]
  show max (Ideal.ofBits .f32 0xFF800000#32) (Finset.fold max (Ideal.ofBits .f32 0xFF800000#32) (score x0 x1 x2 b t) Finset.univ) = _
  rw [ofBits_negInf_f32, bot_sup_eq]
  rfl

/-- The exponential of the shifted score, at `[b, t, s]`, is the unnormalised weight. -/
theorem reference_weight (x0 x1 : (⟨S8x2048x512, .f32⟩ : BufTy).Contents (Elt Ideal)) (x2 : (⟨S512x512, .f32⟩ : BufTy).Contents (Elt Ideal))
    (b : Fin 8) (t s : Fin 2048) :
    val_main_v8 (F := Ideal) x0 x1 x2 (ix3 b t s) = weight x0 x1 x2 b t s := by
  have e6 : idx_main_v5 (idx_main_v6 (ix3 b t s)) = ix2 b t :=
    funext fun a => Fin.ext (by match a with | ⟨0, _⟩ => rfl | ⟨1, _⟩ => rfl)
  rw [val_main_v8_apply, val_main_v7_apply, val_main_v6_apply, val_main_v5_apply, e6, reference_rowMax, reference_score]
  rfl

/-- The sum reduction, at `[b, t]`, is the row's total weight. -/
theorem reference_mass (x0 x1 : (⟨S8x2048x512, .f32⟩ : BufTy).Contents (Elt Ideal)) (x2 : (⟨S512x512, .f32⟩ : BufTy).Contents (Elt Ideal))
    (b : Fin 8) (t : Fin 2048) :
    val_main_v9 (F := Ideal) x0 x1 x2 (ix2 b t) = mass x0 x1 x2 b t := by
  rw [val_main_v9_apply, val_main_cst_1_apply]
  show Ideal.ofBits .f32 0x00000000#32 + _ = _
  rw [Ideal.ofBits_zero_f32, zero_add]
  unfold mass
  refine Finset.sum_congr rfl fun s _ => ?_
  have e9 : idx_main_v9 (ix2 b t) s = ix3 b t s :=
    funext fun a => Fin.ext (by match a with | ⟨0, _⟩ => rfl | ⟨1, _⟩ => rfl | ⟨2, _⟩ => rfl)
  rw [e9, reference_weight]

/-- The quotient, at `[b, t, s]`, is the weight over the row's total. -/
theorem reference_normalised (x0 x1 : (⟨S8x2048x512, .f32⟩ : BufTy).Contents (Elt Ideal)) (x2 : (⟨S512x512, .f32⟩ : BufTy).Contents (Elt Ideal))
    (b : Fin 8) (t s : Fin 2048) :
    val_main_v12 (F := Ideal) x0 x1 x2 (ix3 b t s) = Ideal.div (weight x0 x1 x2 b t s) (mass x0 x1 x2 b t) := by
  have e11 : idx_main_v10 (idx_main_v11 (ix3 b t s)) = ix2 b t :=
    funext fun a => Fin.ext (by match a with | ⟨0, _⟩ => rfl | ⟨1, _⟩ => rfl)
  rw [val_main_v12_apply, val_main_v11_apply, val_main_v10_apply, e11, reference_mass, reference_weight]
  rfl

/-- The reference program's result is the context vector with each weight normalised before the weighted sum. -/
theorem reference_eq_contextRef (x0 x1 : (⟨S8x2048x512, .f32⟩ : BufTy).Contents (Elt Ideal)) (x2 : (⟨S512x512, .f32⟩ : BufTy).Contents (Elt Ideal)) :
    Cert.ReferenceIdeal.Read.val_main_v13 (F := Ideal) x0 x1 x2 = contextRef x0 x1 x2 := by
  funext i
  obtain ⟨b, t, e, rfl⟩ : ∃ (b : Fin 8) (t : Fin 2048) (e : Fin 512), i = ix3 b t e := ⟨i 0, i 1, i 2, eq_ix3 i⟩
  rw [val_main_v13_apply]
  show _ = ∑ s : Fin 2048, Ideal.div (weight x0 x1 x2 b t s) (mass x0 x1 x2 b t) * x0 (ix3 b s e)
  refine Finset.sum_congr rfl fun s _ => ?_
  have el : lidx_main_v13 (ix3 b t e) s = ix3 b t s :=
    funext fun a => Fin.ext (by match a with | ⟨0, _⟩ => rfl | ⟨1, _⟩ => rfl | ⟨2, _⟩ => rfl)
  have er : ridx_main_v13 (ix3 b t e) s = ix3 b s e :=
    funext fun a => Fin.ext (by match a with | ⟨0, _⟩ => rfl | ⟨1, _⟩ => rfl | ⟨2, _⟩ => rfl)
  rw [el, er, reference_normalised]

end Cert.Attention

end
-- ==== Proof.FiniteArguments.lean ====
/-
  The precondition says of each argument array that every entry's absolute value is below +∞. Over the extended
  reals an entry whose absolute value is below +∞ is neither +∞ nor -∞, so it is a real number.
-/
import proofs.«141502_j4174708212176_2_alg».proof.Pre_finite_inputs
import Idealize.ShloMosaic.PureOps.Ideal
import Idealize.ShloMosaic.Lib.ReduceAll
import Idealize.ShloMosaic.Lib.ValueIdx

noncomputable section

namespace Cert.Attention

open Idealize.ShloMosaic

/-- The bit pattern `0x7F800000` is +∞. -/
private theorem ofBits_posInf_f32 : Ideal.ofBits .f32 0x7F800000#32 = (⊤ : EReal) := by
  simp [Ideal.ofBits, Ideal.ieee]

/-- An extended real whose absolute value `max x (-x)` compares below +∞ is a real number. -/
private theorem real_of_abs_lt_top (x : EReal) (h : Ideal.cmp .olt (max x (-x)) ⊤ = 1#1) : ∃ r : ℝ, x = (r : EReal) := by
  induction x using EReal.rec with
  | bot => exact absurd h (by simp [Ideal.cmp])
  | coe r => exact ⟨r, rfl⟩
  | top => exact absurd h (by simp [Ideal.cmp])

/-- Under the precondition every entry of the three arguments is a real number. -/
theorem real_of_finite_inputs [Cert.Pre_finite_inputs.Facts] (x0 x1 : FVec Ideal Cert.Pre_finite_inputs.S8x2048x512 .f32) (x2 : FVec Ideal Cert.Pre_finite_inputs.S512x512 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  haveI : Subsingleton Cert.Pre_finite_inputs.S_.Idx := ⟨fun a b => funext fun d => d.elim0⟩
  refine ⟨fun i => ?_, fun i => ?_, fun i => ?_⟩
  · have e := Host.reduce_andi_all _ _ _ _ _ h0' i
    refine real_of_abs_lt_top (x0 i) ?_
    rw [← ofBits_posInf_f32]
    exact e
  · have e := Host.reduce_andi_all _ _ _ _ _ h1 i
    refine real_of_abs_lt_top (x1 i) ?_
    rw [← ofBits_posInf_f32]
    exact e
  · have e := Host.reduce_andi_all _ _ _ _ _ h2 i
    refine real_of_abs_lt_top (x2 i) ?_
    rw [← ofBits_posInf_f32]
    exact e

end Cert.Attention

end
-- ==== Proof.SoftmaxAlgebra.lean ====
/-
  The one algebraic law that joins the two programs: a weighted sum whose weights are normalised after the
  sum equals the weighted sum of the normalised weights, over the extended reals, when everything is a real number.

  Over the extended reals multiplication does not distribute over addition in general (`⊤ + ⊥` is a corner),
  but it does for a factor `c` with `0 ≤ c < ⊤`:  (y + z) · c = y · c + z · c.  Hence, for such a `c` and
  ARBITRARY extended reals `w s`, `v s`,
      (∑ s, w s · v s) · c = ∑ s, (w s · c) · v s.
  The factor here is `c = 1 / ℓ` with `ℓ` the row's total weight.  When the three arrays hold real numbers,
  every key and every score is a real (a finite sum of products of reals), the row's maximum is a real
  (the row is not empty), every weight is `exp` of a real, hence a positive real, and so `ℓ` is a positive
  real: division by `ℓ` is multiplication by the real `1 / ℓ ≥ 0`, and the law applies.
-/
import proofs.«141502_j4174708212176_2_alg».proof.Proof.AttentionSpec

noncomputable section

namespace Cert.Attention

open Idealize.ShloMosaic Idealize.ShloMosaic.ValueIdx

/-! ### Finite sums of reals inside the extended reals -/

/-- The inclusion of the reals commutes with a finite sum. -/
theorem coe_finset_sum {ι : Type*} (s : Finset ι) (r : ι → ℝ) :
    ((∑ k ∈ s, r k : ℝ) : EReal) = ∑ k ∈ s, (r k : EReal) := by
  classical
  refine Finset.induction_on s ?_ ?_
  · rw [Finset.sum_empty, Finset.sum_empty, EReal.coe_zero]
  · intro a s ha ih
    rw [Finset.sum_insert ha, Finset.sum_insert ha, EReal.coe_add, ih]

/-- A finite sum of products of reals is a real. -/
theorem sum_mul_real {ι : Type*} (s : Finset ι) (f g : ι → EReal)
    (hf : ∀ k, ∃ r : ℝ, f k = (r : EReal)) (hg : ∀ k, ∃ r : ℝ, g k = (r : EReal)) :
    ∃ r : ℝ, ∑ k ∈ s, f k * g k = (r : EReal) := by
  choose x hx using hf
  choose y hy using hg
  refine ⟨∑ k ∈ s, x k * y k, ?_⟩
  rw [coe_finset_sum]
  refine Finset.sum_congr rfl (fun k _ => ?_)
  rw [hx k, hy k, EReal.coe_mul]

/-- A finite nonempty sum of positive reals is a positive real. -/
theorem sum_real_pos {ι : Type*} (s : Finset ι) (hs : s.Nonempty) (f : ι → EReal)
    (hf : ∀ k, ∃ r : ℝ, 0 < r ∧ f k = (r : EReal)) :
    ∃ r : ℝ, 0 < r ∧ ∑ k ∈ s, f k = (r : EReal) := by
  choose x hx using hf
  refine ⟨∑ k ∈ s, x k, Finset.sum_pos (fun k _ => (hx k).1) hs, ?_⟩
  rw [coe_finset_sum]
  exact Finset.sum_congr rfl (fun k _ => (hx k).2)

/-! ### The distributive law for a nonnegative real factor -/

/-- For a real `c ≥ 0` and arbitrary extended reals `w k`, `v k`:
    `(∑ k, w k · v k) · c = ∑ k, (w k · c) · v k`.
    Induction on the index set; the step is right-distributivity of a factor `0 ≤ c < ⊤`
    (which holds at every corner of the extended reals) and commutativity of the product. -/
theorem sum_mul_mul_coe {ι : Type*} (s : Finset ι) (w v : ι → EReal) (c : ℝ) (hc : 0 ≤ c) :
    (∑ k ∈ s, w k * v k) * (c : EReal) = ∑ k ∈ s, (w k * (c : EReal)) * v k := by
  classical
  refine Finset.induction_on s ?_ ?_
  · rw [Finset.sum_empty, Finset.sum_empty, zero_mul]
  · intro a s ha ih
    rw [Finset.sum_insert ha, Finset.sum_insert ha,
      EReal.right_distrib_of_nonneg_of_ne_top (EReal.coe_nonneg.2 hc) (EReal.coe_ne_top c), ih,
      mul_right_comm (w a) (v a) (c : EReal)]

/-! ### Every intermediate quantity is a real -/

/-- The maximum of a row of 2048 reals is a real: it is above `⊥` because the row has an entry (the one at
    index `0`) and every entry is above `⊥`; it is below `⊤` because `⊥` and every entry are. -/
theorem rowMax_real (f : Fin 2048 → EReal) (hf : ∀ s, ∃ r : ℝ, f s = (r : EReal)) :
    ∃ r : ℝ, rowMax f = (r : EReal) := by
  have hbot : (⊥ : EReal) < rowMax f := by
    obtain ⟨r, hr⟩ := hf 0
    exact (Finset.lt_fold_max _).2 (Or.inr ⟨0, Finset.mem_univ _, by rw [hr]; exact EReal.bot_lt_coe r⟩)
  have htop : rowMax f < ⊤ := by
    refine (Finset.fold_max_lt _).2 ⟨bot_lt_top, fun s _ => ?_⟩
    obtain ⟨r, hr⟩ := hf s
    rw [hr]; exact EReal.coe_lt_top r
  exact ⟨(rowMax f).toReal, (EReal.coe_toReal htop.ne hbot.ne').symm⟩

section Real

variable (E D : A3.Idx → EReal) (W : A2.Idx → EReal)
  (hE : ∀ i, ∃ r : ℝ, E i = (r : EReal)) (hD : ∀ i, ∃ r : ℝ, D i = (r : EReal))
  (hW : ∀ i, ∃ r : ℝ, W i = (r : EReal))

include hE hW in
/-- Every key is a real. -/
theorem key_real (b : Fin 8) (s : Fin 2048) (d : Fin 512) : ∃ r : ℝ, key E W b s d = (r : EReal) :=
  sum_mul_real Finset.univ (fun e => E (ix3 b s e)) (fun e => W (ix2 e d)) (fun _ => hE _) (fun _ => hW _)

include hE hD hW in
/-- Every score is a real. -/
theorem score_real (b : Fin 8) (t s : Fin 2048) : ∃ r : ℝ, score E D W b t s = (r : EReal) :=
  sum_mul_real Finset.univ (fun d => D (ix3 b t d)) (fun d => key E W b s d) (fun _ => hD _)
    (fun d => key_real E W hE hW b s d)

include hE hD hW in
/-- Every weight is a positive real: the exponential of the real `score − rowMax`. -/
theorem weight_real_pos (b : Fin 8) (t s : Fin 2048) :
    ∃ r : ℝ, 0 < r ∧ weight E D W b t s = (r : EReal) := by
  obtain ⟨x, hx⟩ := score_real E D W hE hD hW b t s
  obtain ⟨m, hm⟩ := rowMax_real (score E D W b t) (fun s' => score_real E D W hE hD hW b t s')
  refine ⟨Real.exp (x - m), Real.exp_pos _, ?_⟩
  rw [weight, hx, hm, ← EReal.coe_sub, Ideal.exp_coe]

include hE hD hW in
/-- The row's total weight is a positive real. -/
theorem mass_real_pos (b : Fin 8) (t : Fin 2048) :
    ∃ l : ℝ, 0 < l ∧ mass E D W b t = (l : EReal) :=
  sum_real_pos Finset.univ Finset.univ_nonempty (fun s => weight E D W b t s)
    (fun s => weight_real_pos E D W hE hD hW b t s)

end Real

/-! ### The two arrangements agree -/

/-- Normalising each weight before the weighted sum, or the weighted sum afterwards, gives the same context
    vector when the three arrays hold real numbers: the total weight `ℓ` is a positive real, both divisions
    are products with `1 / ℓ`, and that factor moves through the sum. The encoder value that each weight
    multiplies is not inspected. -/
theorem contextRef_eq_context (E D : A3.Idx → EReal) (W : A2.Idx → EReal)
    (hE : ∀ i, ∃ r : ℝ, E i = (r : EReal)) (hD : ∀ i, ∃ r : ℝ, D i = (r : EReal)) (hW : ∀ i, ∃ r : ℝ, W i = (r : EReal)) :
    contextRef E D W = context E D W := by
  funext i
  obtain ⟨l, hl, hm⟩ := mass_real_pos E D W hE hD hW (i 0) (i 1)
  have hl0 : l ≠ 0 := ne_of_gt hl
  have hc : (0 : ℝ) ≤ 1 / l := (one_div_pos.2 hl).le
  unfold contextRef context
  rw [hm]
  simp only [Ideal.div_coe hl0]
  exact (sum_mul_mul_coe Finset.univ (fun s => weight E D W (i 0) (i 1) s)
    (fun s => E (ix3 (i 0) s (i 2))) (1 / l) hc).symm

end Cert.Attention

end
-- ==== Proof.lean ====
/-
  Luong "general" attention, kernel against reference, over the extended reals.

  Both programs compute, for encoder states `E[b, s, e]`, decoder states `D[b, t, d]` and a projection `W[e, d]`, the keys
  `∑ e, E[b, s, e] · W[e, d]`, the scores `∑ d, D[b, t, d] · key[b, s, d]`, the softmax weights
  `exp (score − row maximum)` and their row totals.  The kernel forms the weighted sum of the encoder states first and
  divides it by the row total; the reference divides each weight by the row total and then forms the weighted sum.
  When the arguments are finite every score is a real number, so is its row maximum, every weight is a positive real and
  so is the row total `ℓ`; division by `ℓ` is then multiplication by the nonnegative real `1/ℓ`, which distributes over a
  finite sum of extended reals, and the two arrangements agree (SoftmaxAlgebra).

  The kernel runs over a grid of 8 batches × 4 decoder tiles and keeps the transposed keys of the current batch in a
  scratch buffer, written at the batch's first tile and read at all four; that the scratch holds the batch's keys at
  every point is an induction over the grid points (ArrayContext), over the body's arithmetic read at an index
  (BodyArithmetic, BlockContext).  The reference's value is read one host operation at a time (ReferenceContext), and
  the precondition gives the finiteness (FiniteArguments).  The ideal pass rewrote nothing, so the word-level kernel
  and its idealization are one text and the preservation conjunct is trivial.
-/
import proofs.«141502_j4174708212176_2_alg».proof.Defs
import proofs.«141502_j4174708212176_2_alg».proof.Proof.Gen.Kernel
import proofs.«141502_j4174708212176_2_alg».proof.Proof.Gen.Kernel.Skeleton
import proofs.«141502_j4174708212176_2_alg».proof.Proof.Gen.Kernel.Launch
import proofs.«141502_j4174708212176_2_alg».proof.Proof.Gen.Kernel.Points
import proofs.«141502_j4174708212176_2_alg».proof.Proof.Gen.Kernel.Frame
import proofs.«141502_j4174708212176_2_alg».proof.Proof.Gen.KernelIdeal
import proofs.«141502_j4174708212176_2_alg».proof.Proof.Gen.KernelIdeal.Skeleton
import proofs.«141502_j4174708212176_2_alg».proof.Proof.Gen.KernelIdeal.Launch
import proofs.«141502_j4174708212176_2_alg».proof.Proof.Gen.KernelIdeal.Points
import proofs.«141502_j4174708212176_2_alg».proof.Proof.Gen.KernelIdeal.Frame
import proofs.«141502_j4174708212176_2_alg».proof.Proof.Gen.ReferenceIdeal
import proofs.«141502_j4174708212176_2_alg».proof.Proof.Gen.Pre_finite_inputs
import proofs.«141502_j4174708212176_2_alg».proof.Proof.Gen.KernelIdeal.Value
import proofs.«141502_j4174708212176_2_alg».proof.Proof.Gen.ReferenceIdeal.Run
import proofs.«141502_j4174708212176_2_alg».proof.Proof.Gen.ReferenceIdeal.Read
import proofs.«141502_j4174708212176_2_alg».proof.Proof.ArrayContext
import proofs.«141502_j4174708212176_2_alg».proof.Proof.ReferenceContext
import proofs.«141502_j4174708212176_2_alg».proof.Proof.FiniteArguments
import proofs.«141502_j4174708212176_2_alg».proof.Proof.SoftmaxAlgebra
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the extended reals the kernel's result array ends at the attention context normalised after the weighted sum,
    the reference's at the context with each weight normalised first, of arguments that agree and are finite: one
    function of the arguments. -/
theorem algebraic : Cert.algebraic_KernelIdeal_ReferenceIdeal := by
  intro m ρ m' ρ' hpre hagree
  refine ⟨fun c => Cert.Attention.context (Cert.Attention.Kernel.encA m c) (Cert.Attention.Kernel.decA m c) (Cert.Attention.Kernel.projA m c),
    Cert.Attention.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.Attention.reference_eq_contextRef, (hagree c).1, (hagree c).2.1, (hagree c).2.2]
  obtain ⟨hE, hD, hW⟩ := Cert.Attention.real_of_finite_inputs _ _ _ (hpre c)
  exact Cert.Attention.contextRef_eq_context _ _ _ hE hD hW

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
